-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x10000 .f32) (main_arg1 : FVec F S10000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x10000 : Shape := ⟨2, ![10000, 10000]⟩
abbrev S10000x128 : Shape := ⟨2, ![10000, 128]⟩
abbrev S400x10000 : Shape := ⟨2, ![400, 10000]⟩
abbrev S400x128 : Shape := ⟨2, ![400, 128]⟩

abbrev nBuf : Space → Nat
  | .hbm => 3
  | .vmem => 5
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩

abbrev nBuf : Space → Nat
  | .hbm => 3
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsRuns.lean ====
/-
  One grid point of the kernel, run on any whole buffers.

  At grid point i the body multiplies the point's 400 × 10000 block of the matrix by the narrowed 10000 × 128
  matrix kept in the scratch buffer, and overwrites rows 400·i … 400·i + 399 of the output buffer with the
  400 × 128 product; every other row of the output buffer is left as it was found. At the first point only,
  the scratch buffer is first filled with the narrowed second argument. The two theorems below say exactly
  this, for either instance of the float operations.
-/
import proofs.«137569_g54185307407137_cont_9to1_m_922_17_alg».proof.Proof.Gen.Kernel.Frame
import proofs.«137569_g54185307407137_cont_9to1_m_922_17_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The condition under which the body refills the scratch buffer, as the body computes it from the grid
    coordinate: it holds at the first grid point only. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-- What the output buffer holds after a point: what it held (y2), with the 400 rows starting at the point's
    row offset overwritten by the product of the point's block x0 with the scratch contents s. -/
def stored (i : grid0.Coords) (arg3 : Memref sig .tc .vmem S10000x128 .f32) (harg3 : arg3.IsWhole)
    (y2 : Vec F S10000x128 .f32) (x0 : Vec F S400x10000 .f32) (s : Vec F S10000x128 .bf16) : Vec F S10000x128 .f32 :=
  arg3.view.read (Elt F) (arg3.view.writes (Elt F) (harg3.unread y2)
    [⟨Rect.unit (s := S10000x128) (k0_off1 i) S400x128.size (k0_off1_inb i), k0_pay2 x0 s⟩])

theorem zeros2 : (![0, 0] : Fin 2 → ℕ) = fun _ => 0 := by
  funext a; match a with | ⟨0, _⟩ => rfl | ⟨1, _⟩ => rfl

set_option maxHeartbeats 1000000 in
/-- A point after the first: the scratch buffer is only read. -/
theorem run_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : ¬ atFirst i)
    (x0 : Vec F S400x10000 .f32) (x1 : Vec F S10000x128 .f32) (y2 : Vec F S10000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare y2 ∗ owns (c : Thread nD τ) arg4 fullShare s
            ∗ (iprop(owns (c : Thread nD τ) arg1 fullShare x0 ∗ owns (c : Thread nD τ) arg2 fullShare x1 ∗ owns (c : Thread nD τ) arg3 fullShare (stored i arg3 harg3 y2 x0 s) ∗ owns (c : Thread nD τ) arg4 fullShare s) -∗ K ⟨⟩))
          ⊢ wp frame (wpE (defs₀ (F := F)) Variants.none c none) E (cc0__gcn_body i arg1 harg1 arg2 harg2 arg3 harg3 arg4 harg4) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      unfold stored
      simp only [View.readAt_eq_ld, harg1.read_unread, harg4.read_unread, View.ld_unit_zero (S := S400x10000) zeros2,
        View.ld_unit_zero (S := S10000x128) zeros2]
    · iexists _; isplitr; · ipureintro; exact harg4.read_unread _
      iexact HS0

set_option maxHeartbeats 1000000 in
/-- The first point: the scratch buffer, found at anything, is filled with the narrowed second argument, and
    the product is taken with what was just stored. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : atFirst i)
    (x0 : Vec F S400x10000 .f32) (x1 : Vec F S10000x128 .f32) (y2 : Vec F S10000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare y2 ∗ owns (c : Thread nD τ) arg4 fullShare s
            ∗ (iprop(owns (c : Thread nD τ) arg1 fullShare x0 ∗ owns (c : Thread nD τ) arg2 fullShare x1 ∗ owns (c : Thread nD τ) arg3 fullShare (stored i arg3 harg3 y2 x0 (k0_pay1 x1)) ∗ owns (c : Thread nD τ) arg4 fullShare (k0_pay1 x1)) -∗ K ⟨⟩))
          ⊢ wp frame (wpE (defs₀ (F := F)) Variants.none c none) E (cc0__gcn_body i arg1 harg1 arg2 harg2 arg3 harg3 arg4 harg4) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      unfold stored
      sl_unfold_run_names
      rw [View.readCov_unit_zero _ zeros2]
      simp only [View.readAt_eq_ld, harg1.read_unread, harg2.read_unread, View.ld_unit_zero (S := S400x10000) zeros2,
        View.ld_unit_zero (S := S10000x128) zeros2]
    · iexists _; isplitr; swap; · iexact HS0
      ipureintro
      sl_unfold_run_names
      rw [View.read_writes_eq_canon _ _ _ (fun y => ⟨_, List.mem_singleton_self _, View.mem_set_unit_zero zeros2 inb_S10000x128_S10000x128_0_0 y⟩),
        View.canon_unit_zero zeros2]
      simp only [View.readAt_eq_ld, harg2.read_unread, View.ld_unit_zero (S := S10000x128) zeros2]

end Cert.Kernel.Body

end
-- ==== Proof.BitsLaunch.lean ====
/-
  The proof data of the one pipeline, the body obligation at every grid point, and the run.

  The second argument's staging buffer is fetched once and the scratch buffer is filled from it at the first
  point, so from the second point on the scratch holds the narrowed second argument: that is the invariant
  carried between points. The output's staging buffer is one block, the whole 10000 × 128 result, written
  back after the last point; each point overwrites its own 400 rows of it and keeps the others, so what a
  point leaves there is stated RELATIVE to what it found. The two inputs' buffers hold their blocks at every
  point.
-/
import proofs.«137569_g54185307407137_cont_9to1_m_922_17_alg».proof.Proof.BitsRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points_pos : 0 < cfg0.N := lt_of_lt_of_eq (by decide : 0 < 25) N_0.symm

/-- The first grid point. -/
abbrev first : Fin cfg0.N := ⟨0, points_pos⟩

/-- The scratch operand, and each window's current staging buffer at a point, as the pipeline passes them. -/
abbrev scratch : Memref sig .tc .vmem S10000x128 .bf16 := Memref.whole cc0_scratch0
abbrev buf0 (t : Fin cfg0.N) : Memref sig .tc .vmem S400x10000 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S10000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S10000x128 .f32 := win0_2.stage (cfg0.slots t 2)
abbrev whole2 (t : Fin cfg0.N) : (buf2 t).IsWhole := hstage0_2 ((cfg0.slots t 2).cast nbuf0_2)

/-- The narrowed second argument: what the scratch buffer holds from the end of the first point on. -/
def kept (c : Dev nD) : Vec F S10000x128 .bf16 := k0_pay1 (iblk m c 1 first)

/-- What point t makes of the output buffer: found at Y, it is left at Y with the point's 400 rows overwritten
    by the product of the point's block of the first argument with the narrowed second argument. -/
def step (c : Dev nD) (t : Fin cfg0.N) (Y X : Vec F S10000x128 .f32) : Prop :=
  X = stored (grid0.coords t) (buf2 t) (whole2 t) Y (iblk m c 0 t) (kept m c)

/-- The invariant before point t: the scratch buffer at some contents, which after the first point are the
    narrowed second argument; and the generator register at anything. -/
def inv (c : Dev nD) (t : Fin (cfg0.N + 1)) : sProp 𝕄 :=
  iprop((∃ d, ⌜t.val ≠ 0 → d = kept m c⌝ ∗ owns (c : Thread nD τ) scratch fullShare d) ∗ (∃ r, prngReg c r))

/-- The inputs' buffers named: each holds its block. (The output's entry here is never read: its relation is
    given below.) -/
def named (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := inv m c t
  q _ := fullShare
  owed _ := 0

/-- The output window's relation. -/
def outRel (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => some (step m c)

/-- The proof data: the inputs named, the output related. -/
def data (c : Dev nD) : RDat τ (Elt F) Unit ℕ (UR sig nD τ) ℕ cfg0 c := (named m c).toR.override (outRel m c)

theorem data_A (c : Dev nD) (w : Fin cfg0.W) : (data m c).A w = V m c (Pipeline.arrRef spec0 w) := rfl

/-- The first argument's buffer holds its block at every point: it is fetched at every point. -/
theorem finds0 (c : Dev nD) (t : Fin cfg0.N) (Y : Vec F S400x10000 .f32) (h : (data m c).Finds 0 t Y) : Y = iblk m c 0 t := by
  obtain ⟨d, hd⟩ := (named m c).toR_finds 0 t Y (((named m c).toR.override_finds (ovr := outRel m c) (w := 0) rfl t Y).mp h)
  exact hd.trans (before0_0_of m (named m c) rfl (fun _ => rfl) t d)

/-- The second argument's buffer holds its one block at every point: fetched at the first, kept afterwards. -/
theorem finds1 (c : Dev nD) (t : Fin cfg0.N) (Y : Vec F S10000x128 .f32) (h : (data m c).Finds 1 t Y) : Y = iblk m c 1 t := by
  obtain ⟨d, hd⟩ := (named m c).toR_finds 1 t Y (((named m c).toR.override_finds (ovr := outRel m c) (w := 1) rfl t Y).mp h)
  exact hd.trans (before0_1_of m (named m c) rfl (fun _ => rfl) t d)

set_option maxHeartbeats 800000 in
/-- The body at any point, by cases on whether it is the first. -/
theorem sound_body (c : Dev nD) (t : Fin cfg0.N) (Y2 : Vec F S10000x128 .f32) :
    iprop(inv m c t.castSucc ∗ (named m c).owesAt () t.castSucc
        ∗ owns (c : Thread nD τ) (buf0 t) fullShare (iblk m c 0 t)
        ∗ owns (c : Thread nD τ) (buf1 t) fullShare (iblk m c 1 t)
        ∗ owns (c : Thread nD τ) (buf2 t) fullShare Y2)
      ⊢ wp frame (wpE (defs₀ (F := F)) Variants.none c none) Set.univ (bodyAt0 t) (fun _ =>
          iprop(inv m c t.succ ∗ (named m c).owesAt () t.succ
            ∗ owns (c : Thread nD τ) (buf0 t) fullShare (iblk m c 0 t)
            ∗ owns (c : Thread nD τ) (buf1 t) fullShare (iblk m c 1 t)
            ∗ owns (c : Thread nD τ) (buf2 t) fullShare (stored (grid0.coords t) (buf2 t) (whole2 t) Y2 (iblk m c 0 t) (kept m c)))) := by
  unfold bodyAt0 inv
  rw [show (named m c).owesAt () t.succ = (named m c).owesAt () t.castSucc from rfl]
  by_cases h0 : t.val = 0
  · obtain rfl : t = first := Fin.ext h0
    rw [show kept m c = k0_pay1 (iblk m c 1 first) from rfl]
    iintro ⟨⟨⟨%d, -, HS⟩, Hg⟩, Ho, H0, H1, H2⟩
    iapply ((run_first c (grid0.coords first) _ _ _ _ _ _ _ _ ((atFirst_iff first).mpr rfl) (iblk m c 0 first) (iblk m c 1 first) Y2 d) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; intro _; rfl
      iexact Hg
    isplitl [Ho]; · iexact Ho
    isplitl [H0]; · iexact H0
    isplitl [H1]; · iexact H1
    iexact H2
  · iintro ⟨⟨⟨%d, %hd, HS⟩, Hg⟩, Ho, H0, H1, H2⟩
    obtain rfl := hd h0
    iapply ((run_later c (grid0.coords t) _ _ _ _ _ _ _ _ (fun h => h0 ((atFirst_iff t).mp h)) (iblk m c 0 t) (iblk m c 1 t) Y2 (kept m c)) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; intro _; rfl
      iexact Hg
    isplitl [Ho]; · iexact Ho
    isplitl [H0]; · iexact H0
    isplitl [H1]; · iexact H1
    iexact H2

/-- The body obligation of the proof data, at every point. -/
theorem body_obligation (c : Dev nD) : (data m c).BodyObligation (defs₀ (F := F)) Variants.none () Set.univ := fun t Y hY => by
  have h0 := finds0 m c t (Y 0) (hY 0)
  have h1 := finds1 m c t (Y 1) (hY 1)
  rw [bigSep_W0, bigSep_W0, h0, h1]
  refine (sound_body m c t (Y 2)).trans (wp_mono _ _ _ fun _ => ?_)
  have e0 : (owns (c : Thread nD τ) (buf0 t) fullShare (iblk m c 0 t) : sProp 𝕄)
      ⊢ iprop(∃ X, ⌜(data m c).after 0 t (iblk m c 0 t) X⌝ ∗ owns (c : Thread nD τ) (buf0 t) fullShare X) := by
    iintro H; iexists _; isplitr; swap; · iexact H
    ipureintro; exact rfl
  have e1 : (owns (c : Thread nD τ) (buf1 t) fullShare (iblk m c 1 t) : sProp 𝕄)
      ⊢ iprop(∃ X, ⌜(data m c).after 1 t (iblk m c 1 t) X⌝ ∗ owns (c : Thread nD τ) (buf1 t) fullShare X) := by
    iintro H; iexists _; isplitr; swap; · iexact H
    ipureintro; exact rfl
  have e2 : (owns (c : Thread nD τ) (buf2 t) fullShare (stored (grid0.coords t) (buf2 t) (whole2 t) (Y 2) (iblk m c 0 t) (kept m c)) : sProp 𝕄)
      ⊢ iprop(∃ X, ⌜(data m c).after 2 t (Y 2) X⌝ ∗ owns (c : Thread nD τ) (buf2 t) fullShare X) := by
    iintro H; iexists _; isplitr; swap; · iexact H
    ipureintro; exact rfl
  exact BI.sep_mono (BI.Entails.refl _) (BI.sep_mono (BI.Entails.refl _) (BI.sep_mono e0 (BI.sep_mono e1 e2)))

/-- Entering the region the scratch buffer holds anything; -/
theorem inv_in (c : Dev nD) : (Pipeline.ΦA spec0 c : sProp 𝕄) ⊢ (data m c).Φ 0 := by
  unfold Pipeline.ΦA; rw [scopedRest0_eq]
  show _ ⊢ inv m c 0
  unfold inv
  simp only [scratch, owns_whole]
  iintro ⟨⟨%f, H⟩, Hg⟩
  isplitl [H]
  · iexists f; isplitr; · ipureintro; intro h; exact absurd rfl h
    iexact H
  iexact Hg

/-- and leaving it, what it holds is forgotten. -/
theorem inv_out (c : Dev nD) : (data m c).Φ (Fin.last cfg0.N) ⊢ (Pipeline.ΦA spec0 c : sProp 𝕄) := by
  unfold Pipeline.ΦA; rw [scopedRest0_eq]
  show inv m c (Fin.last cfg0.N) ⊢ _
  unfold inv
  simp only [scratch, owns_whole]
  iintro ⟨⟨%d, -, H⟩, Hg⟩
  isplitl [H]
  · iexists d; iexact H
  iexact Hg

theorem data_share (c : Dev nD) (w : Fin cfg0.W) : (data m c).share w = fullShare := by
  unfold RDat.share; split <;> rfl

set_option backward.isDefEq.respectTransparency.types false in
/-- The run: every weakly fair execution of the program terminates, and afterwards every array of the pipeline
    holds contents the proof data allows after the write-backs. -/
theorem run_main : θ_run defs (onTc (τ := τ) (main (F := F))) (s₀ m ρ) (Pipeline.RDat.FramePost (cfgs 0) (fun c => data m c) (V m)) :=
  Pipeline.RDat.θ_run_frame_track cfgs (0 : Fin 1) launch0 defs₀ Variants.none (fun c => data m c) m ρ main
    (hbody := fun c => body_obligation m c) (hshare := fun c w => data_share m c w)
    (howed := fun _ _ => rfl) (V := V m) (hmain := hmain m Variants.none) (hA := fun c w => data_A m c w)
    (hin := inv_in m) (hout := inv_out m)

/-- The two arguments' arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have a0 := (h c).1 0
    have a1 := (h c).1 1
    rw [(data m c).ArrAt_in 0 rfl] at a0
    rw [(data m c).ArrAt_in 1 rfl] at a1
    exact ⟨a0, a1⟩) (run_main m ρ)

end Cert.Kernel.Body

end
-- ==== Proof.IdealRuns.lean ====
/-
  One grid point of the kernel, run on any whole buffers.

  At grid point i the body multiplies the point's 400 × 10000 block of the matrix by the narrowed 10000 × 128
  matrix kept in the scratch buffer, and overwrites rows 400·i … 400·i + 399 of the output buffer with the
  400 × 128 product; every other row of the output buffer is left as it was found. At the first point only,
  the scratch buffer is first filled with the narrowed second argument. The two theorems below say exactly
  this, for either instance of the float operations.
-/
import proofs.«137569_g54185307407137_cont_9to1_m_922_17_alg».proof.Proof.Gen.KernelIdeal.Frame
import proofs.«137569_g54185307407137_cont_9to1_m_922_17_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The condition under which the body refills the scratch buffer, as the body computes it from the grid
    coordinate: it holds at the first grid point only. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-- What the output buffer holds after a point: what it held (y2), with the 400 rows starting at the point's
    row offset overwritten by the product of the point's block x0 with the scratch contents s. -/
def stored (i : grid0.Coords) (arg3 : Memref sig .tc .vmem S10000x128 .f32) (harg3 : arg3.IsWhole)
    (y2 : Vec F S10000x128 .f32) (x0 : Vec F S400x10000 .f32) (s : Vec F S10000x128 .bf16) : Vec F S10000x128 .f32 :=
  arg3.view.read (Elt F) (arg3.view.writes (Elt F) (harg3.unread y2)
    [⟨Rect.unit (s := S10000x128) (k0_off1 i) S400x128.size (k0_off1_inb i), k0_pay2 x0 s⟩])

theorem zeros2 : (![0, 0] : Fin 2 → ℕ) = fun _ => 0 := by
  funext a; match a with | ⟨0, _⟩ => rfl | ⟨1, _⟩ => rfl

set_option maxHeartbeats 1000000 in
/-- A point after the first: the scratch buffer is only read. -/
theorem run_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : ¬ atFirst i)
    (x0 : Vec F S400x10000 .f32) (x1 : Vec F S10000x128 .f32) (y2 : Vec F S10000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare y2 ∗ owns (c : Thread nD τ) arg4 fullShare s
            ∗ (iprop(owns (c : Thread nD τ) arg1 fullShare x0 ∗ owns (c : Thread nD τ) arg2 fullShare x1 ∗ owns (c : Thread nD τ) arg3 fullShare (stored i arg3 harg3 y2 x0 s) ∗ owns (c : Thread nD τ) arg4 fullShare s) -∗ K ⟨⟩))
          ⊢ wp frame (wpE (defs₀ (F := F)) Variants.none c none) E (cc0__gcn_body i arg1 harg1 arg2 harg2 arg3 harg3 arg4 harg4) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      unfold stored
      simp only [View.readAt_eq_ld, harg1.read_unread, harg4.read_unread, View.ld_unit_zero (S := S400x10000) zeros2,
        View.ld_unit_zero (S := S10000x128) zeros2]
    · iexists _; isplitr; · ipureintro; exact harg4.read_unread _
      iexact HS0

set_option maxHeartbeats 1000000 in
/-- The first point: the scratch buffer, found at anything, is filled with the narrowed second argument, and
    the product is taken with what was just stored. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : atFirst i)
    (x0 : Vec F S400x10000 .f32) (x1 : Vec F S10000x128 .f32) (y2 : Vec F S10000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare y2 ∗ owns (c : Thread nD τ) arg4 fullShare s
            ∗ (iprop(owns (c : Thread nD τ) arg1 fullShare x0 ∗ owns (c : Thread nD τ) arg2 fullShare x1 ∗ owns (c : Thread nD τ) arg3 fullShare (stored i arg3 harg3 y2 x0 (k0_pay1 x1)) ∗ owns (c : Thread nD τ) arg4 fullShare (k0_pay1 x1)) -∗ K ⟨⟩))
          ⊢ wp frame (wpE (defs₀ (F := F)) Variants.none c none) E (cc0__gcn_body i arg1 harg1 arg2 harg2 arg3 harg3 arg4 harg4) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      unfold stored
      sl_unfold_run_names
      rw [View.readCov_unit_zero _ zeros2]
      simp only [View.readAt_eq_ld, harg1.read_unread, harg2.read_unread, View.ld_unit_zero (S := S400x10000) zeros2,
        View.ld_unit_zero (S := S10000x128) zeros2]
    · iexists _; isplitr; swap; · iexact HS0
      ipureintro
      sl_unfold_run_names
      rw [View.read_writes_eq_canon _ _ _ (fun y => ⟨_, List.mem_singleton_self _, View.mem_set_unit_zero zeros2 inb_S10000x128_S10000x128_0_0 y⟩),
        View.canon_unit_zero zeros2]
      simp only [View.readAt_eq_ld, harg2.read_unread, View.ld_unit_zero (S := S10000x128) zeros2]

end Cert.KernelIdeal.Body

end
-- ==== Proof.IdealLaunch.lean ====
/-
  The proof data of the one pipeline, the body obligation at every grid point, and the run.

  The second argument's staging buffer is fetched once and the scratch buffer is filled from it at the first
  point, so from the second point on the scratch holds the narrowed second argument: that is the invariant
  carried between points. The output's staging buffer is one block, the whole 10000 × 128 result, written
  back after the last point; each point overwrites its own 400 rows of it and keeps the others, so what a
  point leaves there is stated RELATIVE to what it found. The two inputs' buffers hold their blocks at every
  point.
-/
import proofs.«137569_g54185307407137_cont_9to1_m_922_17_alg».proof.Proof.IdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points_pos : 0 < cfg0.N := lt_of_lt_of_eq (by decide : 0 < 25) N_0.symm

/-- The first grid point. -/
abbrev first : Fin cfg0.N := ⟨0, points_pos⟩

/-- The scratch operand, and each window's current staging buffer at a point, as the pipeline passes them. -/
abbrev scratch : Memref sig .tc .vmem S10000x128 .bf16 := Memref.whole cc0_scratch0
abbrev buf0 (t : Fin cfg0.N) : Memref sig .tc .vmem S400x10000 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S10000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S10000x128 .f32 := win0_2.stage (cfg0.slots t 2)
abbrev whole2 (t : Fin cfg0.N) : (buf2 t).IsWhole := hstage0_2 ((cfg0.slots t 2).cast nbuf0_2)

/-- The narrowed second argument: what the scratch buffer holds from the end of the first point on. -/
def kept (c : Dev nD) : Vec F S10000x128 .bf16 := k0_pay1 (iblk m c 1 first)

/-- What point t makes of the output buffer: found at Y, it is left at Y with the point's 400 rows overwritten
    by the product of the point's block of the first argument with the narrowed second argument. -/
def step (c : Dev nD) (t : Fin cfg0.N) (Y X : Vec F S10000x128 .f32) : Prop :=
  X = stored (grid0.coords t) (buf2 t) (whole2 t) Y (iblk m c 0 t) (kept m c)

/-- The invariant before point t: the scratch buffer at some contents, which after the first point are the
    narrowed second argument; and the generator register at anything. -/
def inv (c : Dev nD) (t : Fin (cfg0.N + 1)) : sProp 𝕄 :=
  iprop((∃ d, ⌜t.val ≠ 0 → d = kept m c⌝ ∗ owns (c : Thread nD τ) scratch fullShare d) ∗ (∃ r, prngReg c r))

/-- The inputs' buffers named: each holds its block. (The output's entry here is never read: its relation is
    given below.) -/
def named (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := inv m c t
  q _ := fullShare
  owed _ := 0

/-- The output window's relation. -/
def outRel (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => some (step m c)

/-- The proof data: the inputs named, the output related. -/
def data (c : Dev nD) : RDat τ (Elt F) Unit ℕ (UR sig nD τ) ℕ cfg0 c := (named m c).toR.override (outRel m c)

theorem data_A (c : Dev nD) (w : Fin cfg0.W) : (data m c).A w = V m c (Pipeline.arrRef spec0 w) := rfl

/-- The first argument's buffer holds its block at every point: it is fetched at every point. -/
theorem finds0 (c : Dev nD) (t : Fin cfg0.N) (Y : Vec F S400x10000 .f32) (h : (data m c).Finds 0 t Y) : Y = iblk m c 0 t := by
  obtain ⟨d, hd⟩ := (named m c).toR_finds 0 t Y (((named m c).toR.override_finds (ovr := outRel m c) (w := 0) rfl t Y).mp h)
  exact hd.trans (before0_0_of m (named m c) rfl (fun _ => rfl) t d)

/-- The second argument's buffer holds its one block at every point: fetched at the first, kept afterwards. -/
theorem finds1 (c : Dev nD) (t : Fin cfg0.N) (Y : Vec F S10000x128 .f32) (h : (data m c).Finds 1 t Y) : Y = iblk m c 1 t := by
  obtain ⟨d, hd⟩ := (named m c).toR_finds 1 t Y (((named m c).toR.override_finds (ovr := outRel m c) (w := 1) rfl t Y).mp h)
  exact hd.trans (before0_1_of m (named m c) rfl (fun _ => rfl) t d)

set_option maxHeartbeats 800000 in
/-- The body at any point, by cases on whether it is the first. -/
theorem sound_body (c : Dev nD) (t : Fin cfg0.N) (Y2 : Vec F S10000x128 .f32) :
    iprop(inv m c t.castSucc ∗ (named m c).owesAt () t.castSucc
        ∗ owns (c : Thread nD τ) (buf0 t) fullShare (iblk m c 0 t)
        ∗ owns (c : Thread nD τ) (buf1 t) fullShare (iblk m c 1 t)
        ∗ owns (c : Thread nD τ) (buf2 t) fullShare Y2)
      ⊢ wp frame (wpE (defs₀ (F := F)) Variants.none c none) Set.univ (bodyAt0 t) (fun _ =>
          iprop(inv m c t.succ ∗ (named m c).owesAt () t.succ
            ∗ owns (c : Thread nD τ) (buf0 t) fullShare (iblk m c 0 t)
            ∗ owns (c : Thread nD τ) (buf1 t) fullShare (iblk m c 1 t)
            ∗ owns (c : Thread nD τ) (buf2 t) fullShare (stored (grid0.coords t) (buf2 t) (whole2 t) Y2 (iblk m c 0 t) (kept m c)))) := by
  unfold bodyAt0 inv
  rw [show (named m c).owesAt () t.succ = (named m c).owesAt () t.castSucc from rfl]
  by_cases h0 : t.val = 0
  · obtain rfl : t = first := Fin.ext h0
    rw [show kept m c = k0_pay1 (iblk m c 1 first) from rfl]
    iintro ⟨⟨⟨%d, -, HS⟩, Hg⟩, Ho, H0, H1, H2⟩
    iapply ((run_first c (grid0.coords first) _ _ _ _ _ _ _ _ ((atFirst_iff first).mpr rfl) (iblk m c 0 first) (iblk m c 1 first) Y2 d) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; intro _; rfl
      iexact Hg
    isplitl [Ho]; · iexact Ho
    isplitl [H0]; · iexact H0
    isplitl [H1]; · iexact H1
    iexact H2
  · iintro ⟨⟨⟨%d, %hd, HS⟩, Hg⟩, Ho, H0, H1, H2⟩
    obtain rfl := hd h0
    iapply ((run_later c (grid0.coords t) _ _ _ _ _ _ _ _ (fun h => h0 ((atFirst_iff t).mp h)) (iblk m c 0 t) (iblk m c 1 t) Y2 (kept m c)) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; intro _; rfl
      iexact Hg
    isplitl [Ho]; · iexact Ho
    isplitl [H0]; · iexact H0
    isplitl [H1]; · iexact H1
    iexact H2

/-- The body obligation of the proof data, at every point. -/
theorem body_obligation (c : Dev nD) : (data m c).BodyObligation (defs₀ (F := F)) Variants.none () Set.univ := fun t Y hY => by
  have h0 := finds0 m c t (Y 0) (hY 0)
  have h1 := finds1 m c t (Y 1) (hY 1)
  rw [bigSep_W0, bigSep_W0, h0, h1]
  refine (sound_body m c t (Y 2)).trans (wp_mono _ _ _ fun _ => ?_)
  have e0 : (owns (c : Thread nD τ) (buf0 t) fullShare (iblk m c 0 t) : sProp 𝕄)
      ⊢ iprop(∃ X, ⌜(data m c).after 0 t (iblk m c 0 t) X⌝ ∗ owns (c : Thread nD τ) (buf0 t) fullShare X) := by
    iintro H; iexists _; isplitr; swap; · iexact H
    ipureintro; exact rfl
  have e1 : (owns (c : Thread nD τ) (buf1 t) fullShare (iblk m c 1 t) : sProp 𝕄)
      ⊢ iprop(∃ X, ⌜(data m c).after 1 t (iblk m c 1 t) X⌝ ∗ owns (c : Thread nD τ) (buf1 t) fullShare X) := by
    iintro H; iexists _; isplitr; swap; · iexact H
    ipureintro; exact rfl
  have e2 : (owns (c : Thread nD τ) (buf2 t) fullShare (stored (grid0.coords t) (buf2 t) (whole2 t) (Y 2) (iblk m c 0 t) (kept m c)) : sProp 𝕄)
      ⊢ iprop(∃ X, ⌜(data m c).after 2 t (Y 2) X⌝ ∗ owns (c : Thread nD τ) (buf2 t) fullShare X) := by
    iintro H; iexists _; isplitr; swap; · iexact H
    ipureintro; exact rfl
  exact BI.sep_mono (BI.Entails.refl _) (BI.sep_mono (BI.Entails.refl _) (BI.sep_mono e0 (BI.sep_mono e1 e2)))

/-- Entering the region the scratch buffer holds anything; -/
theorem inv_in (c : Dev nD) : (Pipeline.ΦA spec0 c : sProp 𝕄) ⊢ (data m c).Φ 0 := by
  unfold Pipeline.ΦA; rw [scopedRest0_eq]
  show _ ⊢ inv m c 0
  unfold inv
  simp only [scratch, owns_whole]
  iintro ⟨⟨%f, H⟩, Hg⟩
  isplitl [H]
  · iexists f; isplitr; · ipureintro; intro h; exact absurd rfl h
    iexact H
  iexact Hg

/-- and leaving it, what it holds is forgotten. -/
theorem inv_out (c : Dev nD) : (data m c).Φ (Fin.last cfg0.N) ⊢ (Pipeline.ΦA spec0 c : sProp 𝕄) := by
  unfold Pipeline.ΦA; rw [scopedRest0_eq]
  show inv m c (Fin.last cfg0.N) ⊢ _
  unfold inv
  simp only [scratch, owns_whole]
  iintro ⟨⟨%d, -, H⟩, Hg⟩
  isplitl [H]
  · iexists d; iexact H
  iexact Hg

theorem data_share (c : Dev nD) (w : Fin cfg0.W) : (data m c).share w = fullShare := by
  unfold RDat.share; split <;> rfl

set_option backward.isDefEq.respectTransparency.types false in
/-- The run: every weakly fair execution of the program terminates, and afterwards every array of the pipeline
    holds contents the proof data allows after the write-backs. -/
theorem run_main : θ_run defs (onTc (τ := τ) (main (F := F))) (s₀ m ρ) (Pipeline.RDat.FramePost (cfgs 0) (fun c => data m c) (V m)) :=
  Pipeline.RDat.θ_run_frame_track cfgs (0 : Fin 1) launch0 defs₀ Variants.none (fun c => data m c) m ρ main
    (hbody := fun c => body_obligation m c) (hshare := fun c w => data_share m c w)
    (howed := fun _ _ => rfl) (V := V m) (hmain := hmain m Variants.none) (hA := fun c w => data_A m c w)
    (hin := inv_in m) (hout := inv_out m)

/-- The two arguments' arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have a0 := (h c).1 0
    have a1 := (h c).1 1
    rw [(data m c).ArrAt_in 0 rfl] at a0
    rw [(data m c).ArrAt_in 1 rfl] at a1
    exact ⟨a0, a1⟩) (run_main m ρ)

end Cert.KernelIdeal.Body

end
-- ==== Proof.Spec.lean ====
/-
  The specification: the product of a 10000 × 10000 matrix with a 10000 × 128 matrix over the extended reals,
  entry (r, d) the sum over k of a (r, k) · x (k, d), the terms taken in the order of k.
-/
import Idealize.ShloMosaic.PureOps.Ideal
import Idealize.ShloMosaic.Lib.ValueIdx

noncomputable section

namespace Cert.Spec

open Idealize.ShloMosaic Idealize.ShloMosaic.ValueIdx

abbrev SA : Shape := ⟨2, ![10000, 10000]⟩
abbrev SX : Shape := ⟨2, ![10000, 128]⟩

/-- Entry (r, d) of the product a · x: the sum over k of a (r, k) · x (k, d). -/
def prod (a : FVec Ideal SA .f32) (x : FVec Ideal SX .f32) : FVec Ideal SX .f32 :=
  fun i => ∑ k : Fin 10000, a (ix2 (i 0) k) * x (ix2 k (i 1))

end Cert.Spec

end
-- ==== Proof.IdealProduct.lean ====
/-
  What the kernel's result array holds after the run, at the exact instance: the product of the specification.

  Point t leaves rows 400·t … 400·t + 399 of the output buffer at the product of rows 400·t … of the first
  argument with the second argument (narrowing is the identity on the extended reals, and the matrix unit's
  accumulation into zero is the plain sum over k), and keeps the rows below. So by induction on the point the
  rows below 400·t are final when point t starts, all 10000 rows are final after the last point, and the one
  write-back copies the buffer to the result array.
-/
import proofs.«137569_g54185307407137_cont_9to1_m_922_17_alg».proof.Proof.IdealLaunch
import proofs.«137569_g54185307407137_cont_9to1_m_922_17_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The store of a point, read back (either instance) -/

/-- The row offset of point t's store. -/
theorem row_off : ∀ t : Fin cfg0.N, k0_off1 (grid0.coords t) = ![400 * t.val, 0] :=
  (by decide +kernel : ∀ t : Fin grid0.N, k0_off1 (grid0.coords t) = ![400 * t.val, 0])

/-- Inside the stored rows the buffer reads the product, at the row counted from the offset. -/
theorem stored_in (i : grid0.Coords) (arg3 : Memref sig .tc .vmem S10000x128 .f32) (harg3 : arg3.IsWhole)
    (y2 : Vec F S10000x128 .f32) (x0 : Vec F S400x10000 .f32) (s : Vec F S10000x128 .bf16) (o : ℕ) (ho : k0_off1 i = ![o, 0])
    (y : S10000x128.Idx) (x : S400x128.Idx) (h0 : (y 0).val = o + (x 0).val) (h1 : (y 1).val = (x 1).val) :
    stored i arg3 harg3 y2 x0 s y = k0_pay2 x0 s x := by
  unfold stored
  exact View.read_writes_cons_rows_of_mem arg3.view (harg3.unread y2) (k0_off1_inb i) (k0_pay2 x0 s) [] y x ho h0 h1

/-- Outside them it reads what was there before. -/
theorem stored_out (i : grid0.Coords) (arg3 : Memref sig .tc .vmem S10000x128 .f32) (harg3 : arg3.IsWhole)
    (y2 : Vec F S10000x128 .f32) (x0 : Vec F S400x10000 .f32) (s : Vec F S10000x128 .bf16) (o : ℕ) (ho : k0_off1 i = ![o, 0])
    (y : S10000x128.Idx) (h : (y 0).val < o ∨ o + 400 ≤ (y 0).val) :
    stored i arg3 harg3 y2 x0 s y = y2 y := by
  unfold stored
  rw [View.read_writes_cons_rows_of_not_mem arg3.view (harg3.unread y2) (k0_off1_inb i) (k0_pay2 x0 s) [] y ho rfl h,
    View.writes_nil, harg3.read_unread]

/-! ## The windows' blocks at an index (either instance) -/

variable (m : (ℓ : Loc nD τ sig) → Buf (Elt F) ℓ)

/-- The block indices of the three windows: the first argument's moves down one block of 400 rows per point, the
    other two stay at the one block that is the whole array. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row p of point t's block of the first argument is row 400·t + p of the array. -/
theorem block0_apply (c : Dev nD) (t : Fin cfg0.N) (p : Fin 400) (k : Fin 10000) (r : Fin 10000) (hr : r.val = 400 * t.val + p.val) :
    iblk m c 0 t (ix2 p k) = (V m c main_arg0 : S10000x10000.Idx → Elt F .f32) (ix2 r k) := by
  obtain ⟨e0, e1, -⟩ := block_index t
  show (V m c main_arg0 : S10000x10000.Idx → Elt F .f32) (((cfg0.win 0).blk t).view.emb (ix2 p k)) = _
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The second argument's block is the whole array. -/
theorem block1_apply (c : Dev nD) (t : Fin cfg0.N) (k : Fin 10000) (q : Fin 128) :
    iblk m c 1 t (ix2 k q) = (V m c main_arg1 : S10000x128.Idx → Elt F .f32) (ix2 k q) := by
  obtain ⟨-, -, e0, e1, -⟩ := block_index t
  show (V m c main_arg1 : S10000x128.Idx → Elt F .f32) (((cfg0.win 1).blk t).view.emb (ix2 k q)) = _
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * q.val = q.val; omega

end Cert.KernelIdeal.Body

/-! ## At the exact instance -/

namespace Cert.KernelIdeal.Result

open Idealize.ShloMosaic Idealize.ShloMosaic.TcCoe Idealize.ShloMosaic.ValueIdx
open Idealize.SL.Sem
open Idealize.ShloMosaic.Pipeline (Dat RDat)
open Cert.KernelIdeal Cert.KernelIdeal.Gen Cert.KernelIdeal.Body

theorem lhs_row (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_contr (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs_contr (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs_col (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A point's 400 × 128 product at (p, q): the sum over k of block (p, k) · scratch (k, q) — the narrowing of
    the block is the identity, and the accumulator the matrix unit adds into is zero. -/
theorem product_apply (v3 : Vec Ideal S400x10000 .f32) (v5 : Vec Ideal S10000x128 .bf16) (p : Fin 400) (q : Fin 128) :
    k0_pay2 (F := Ideal) v3 v5 (ix2 p q) = ∑ k : Fin 10000, v3 (ix2 p k) * v5 (ix2 k q) := by
  show FloatOps.matmul (F := Ideal) dot_S400x10000_S10000x128_S400x128_1_0_0_1_n_n none (truncf .bf16 (v3 : FVec Ideal S400x10000 .f32) bitsLt_bf16_f32)
    (v5 : FVec Ideal S10000x128 .bf16) (constant (F := Ideal) S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_row _ _
    | ⟨1, _⟩ => exact (lhs_contr _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_contr _ _).trans hk
    | ⟨1, _⟩ => exact rhs_col _ _)
  rw [el, er]
  rfl

/-- The narrowed second argument at an index is the second argument there. -/
theorem narrow_apply (v : Vec Ideal S10000x128 .f32) (y : S10000x128.Idx) : k0_pay1 (F := Ideal) v y = v y := by
  unfold k0_pay1
  exact congrFun (shapeCast_self (truncf (F := Ideal) .bf16 (v : FVec Ideal S10000x128 .f32) bitsLt_bf16_f32) shapeCasts_S10000x128_S10000x128) y

variable (m : (ℓ : Loc nD τ sig) → Buf (Elt Ideal) ℓ)

/-- The product of the two argument arrays as launched. -/
def result (c : Dev nD) : FVec Ideal S10000x128 .f32 :=
  Cert.Spec.prod (m ((c.tc : Thread nD τ).loc main_arg0)) (m ((c.tc : Thread nD τ).loc main_arg1))

/-- The product at (r, q). -/
theorem prod_apply (a : FVec Ideal Cert.Spec.SA .f32) (x : FVec Ideal Cert.Spec.SX .f32) (r : Fin 10000) (q : Fin 128) :
    Cert.Spec.prod a x (ix2 r q) = ∑ k : Fin 10000, a (ix2 r k) * x (ix2 k q) := rfl

/-- What point t stores at row p of its 400 is row 400·t + p of the product. -/
theorem point_rows (c : Dev nD) (t : Fin cfg0.N) (p : Fin 400) (q : Fin 128) (r : Fin 10000) (hr : r.val = 400 * t.val + p.val) :
    k0_pay2 (F := Ideal) (iblk m c 0 t) (kept m c) (ix2 p q) = result m c (ix2 r q) := by
  unfold result
  rw [product_apply, prod_apply]
  refine Finset.sum_congr rfl fun k _ => ?_
  rw [block0_apply m c t p k r hr]
  unfold kept
  rw [narrow_apply, block1_apply]

/-- Rows below n of a buffer's contents are rows of the product. -/
def DoneBelow (c : Dev nD) (n : ℕ) (Y : Vec Ideal S10000x128 .f32) : Prop :=
  ∀ (r : Fin 10000) (q : Fin 128), r.val < n → Y (ix2 r q) = result m c (ix2 r q)

/-- One point extends the finished rows by its 400. -/
theorem step_done (c : Dev nD) (t : Fin cfg0.N) (Y X : Vec Ideal S10000x128 .f32) (hY : DoneBelow m c (400 * t.val) Y)
    (hX : step m c t Y X) : DoneBelow m c (400 * (t.val + 1)) X := by
  intro r q hr
  rw [hX]
  by_cases hlt : r.val < 400 * t.val
  · rw [stored_out (grid0.coords t) (buf2 t) (whole2 t) Y (iblk m c 0 t) (kept m c) (400 * t.val) (row_off t) (ix2 r q) (Or.inl hlt)]
    exact hY r q hlt
  · have hp : r.val - 400 * t.val < 400 := by omega
    rw [stored_in (grid0.coords t) (buf2 t) (whole2 t) Y (iblk m c 0 t) (kept m c) (400 * t.val) (row_off t) (ix2 r q)
      (ix2 ⟨r.val - 400 * t.val, hp⟩ q) (by show r.val = 400 * t.val + (r.val - 400 * t.val); omega) rfl]
    exact point_rows m c t ⟨r.val - 400 * t.val, hp⟩ q r (by show r.val = 400 * t.val + (r.val - 400 * t.val); omega)

end Cert.KernelIdeal.Result

end
-- ==== Proof.IdealResult.lean ====
/-
  The kernel's run, read: the result array ends at the product of the two argument arrays.

  The output's staging buffer is never fetched into and is written back only after the last of the 25 points. When
  point n starts, the rows below 400·n of what it finds there are rows of the product (nothing at the first
  point; afterwards what the point before left); so after the last point all 10000 rows are, and the write-back
  — one block, the whole array — leaves the result array at exactly that.
-/
import proofs.«137569_g54185307407137_cont_9to1_m_922_17_alg».proof.Proof.IdealProduct

set_option maxRecDepth 16384

noncomputable section

namespace Cert.KernelIdeal.Result

open Idealize.ShloMosaic Idealize.ShloMosaic.TcCoe Idealize.ShloMosaic.ValueIdx
open Idealize.SL.Sem
open Idealize.ShloMosaic.Pipeline (Dat RDat)
open Cert.KernelIdeal Cert.KernelIdeal.Gen Cert.KernelIdeal.Body

variable (m : (ℓ : Loc nD τ sig) → Buf (Elt Ideal) ℓ) (ρ : Dev nD → PrngReg)

theorem points : cfg0.N = 25 := N_0

theorem last_lt : 24 < cfg0.N := lt_of_lt_of_eq (by decide : 24 < 25) points.symm

/-- The last grid point. -/
abbrev last : Fin cfg0.N := ⟨24, last_lt⟩

/-- The output's staging buffer is never fetched into. -/
theorem out_not_fetched : ∀ t : Fin cfg0.N, (cfg0.win 2).fetch t = false :=
  (by decide +kernel : ∀ t : Fin grid0.N, win0_2.fetch t = false)

/-- When point n starts, the rows below 400·n of the output buffer are rows of the product. -/
theorem finds_done (c : Dev nD) : ∀ (n : ℕ) (hn : n < cfg0.N) (Y : Vec Ideal S10000x128 .f32),
    (data m c).Finds 2 ⟨n, hn⟩ Y → DoneBelow m c (400 * n) Y
  | 0, _, _, _ => fun r _ hr => absurd hr (by omega)
  | n + 1, hn, Y, h => by
    have hpos : (⟨n + 1, hn⟩ : Fin cfg0.N).val ≠ 0 := Nat.succ_ne_zero n
    rcases ((data m c).finds_of_pos (out_not_fetched _) hpos Y).mp h with hfl | ⟨Y', hY', hstep⟩
    · exfalso
      have h24 : (n + 1 - 1) % 25 = 24 := (flush0_2 _).mp hfl
      have hN : n + 1 < 25 := lt_of_lt_of_eq hn points
      omega
    · have hn' : n < cfg0.N := Nat.lt_of_succ_lt hn
      have hY'' : (data m c).Finds 2 ⟨n, hn'⟩ Y' := hY'
      have hstep' : step m c ⟨n, hn'⟩ Y' Y := hstep
      exact step_done m c ⟨n, hn'⟩ Y' Y (finds_done c n hn' Y' hY'') hstep'

/-- After the last point every row is. -/
theorem leaves_done (c : Dev nD) (X : Vec Ideal S10000x128 .f32) (h : (data m c).Leaves 2 last X) :
    DoneBelow m c (400 * (24 + 1)) X := by
  obtain ⟨Y, hY, hstep⟩ := h
  have hstep' : step m c last Y X := hstep
  exact step_done m c last Y X (finds_done m c 24 last_lt Y hY) hstep'

/-- Before the last point's write-back the result array is as the region found it. -/
theorem arr_before_last (c : Dev nD) : ∀ n, n ≤ 24 → (data m c).ArrAt 2 n = fun F => F = (data m c).A 2
  | 0, _ => rfl
  | n + 1, h => by
    have hn : n < cfg0.N := lt_of_lt_of_eq (by omega : n < 25) points.symm
    have hs := (data m c).ArrAt_succ 2 ⟨n, hn⟩
    dsimp only at hs
    rw [hs, if_neg, arr_before_last c n (by omega)]
    intro hfl
    have h24 : n % 25 = 24 := (flush0_2 ⟨n, hn⟩).mp hfl
    omega

/-- After it, it holds the product. -/
theorem arr_final (c : Dev nD) (F : Buf (Elt Ideal) ((cfg0.win 2).arr.view.loc (c.tc : Thread nD τ)))
    (h : (data m c).ArrAt 2 cfg0.N F) : (F : S10000x128.Idx → EReal) = result m c := by
  have h' : (data m c).ArrAt 2 ((last : Fin cfg0.N).val + 1) F :=
    (congrArg (fun n => (data m c).ArrAt 2 n F) points).mp h
  rw [(data m c).ArrAt_succ 2 last, if_pos ((flush0_2 last).mpr rfl), arr_before_last m c 24 le_rfl] at h'
  obtain ⟨G₀, X, rfl, hX, rfl⟩ := h'
  have hdone := leaves_done m c X hX
  funext i
  obtain ⟨r, q, rfl⟩ : ∃ (r : Fin 10000) (q : Fin 128), i = ix2 r q := ⟨i 0, i 1, eq_ix2 i⟩
  rw [← hdone r q (by have := r.isLt; omega)]
  have hemb : ((cfg0.win 2).blk last).view.emb (ix2 r q) = ix2 r q := funext fun a => Fin.ext (by
    obtain ⟨-, -, -, -, e0, e1⟩ := block_index last
    match a with
    | ⟨0, _⟩ => show win0_2.index last (0 : Fin 2) * 10000 + 1 * r.val = r.val; omega
    | ⟨1, _⟩ => show win0_2.index last (1 : Fin 2) * 128 + 1 * q.val = q.val; omega)
  have h1 := congrFun (View.read_write_univ (v := ((cfg0.win 2).blk last).view) ((data m c).A 2)
    ((cfg0.win 2).cut (grid0.coords last) X)) (ix2 r q)
  have h2 : (((cfg0.win 2).blk last).view.write (Elt Ideal) ((data m c).A 2) ((cfg0.win 2).cut (grid0.coords last) X) Finset.univ : S10000x128.Idx → EReal)
      (((cfg0.win 2).blk last).view.emb (ix2 r q)) = (X : S10000x128.Idx → EReal) (ix2 r q) := h1
  rw [hemb] at h2
  exact h2

/-- The run re-posted: the result array at the product of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have a0 := (h c).1 0
    have a1 := (h c).1 1
    rw [(data m c).ArrAt_in 0 rfl] at a0
    rw [(data m c).ArrAt_in 1 rfl] at a1
    exact ⟨arr_final m c _ ((h c).1 2), a0, a1⟩) (run_main m ρ)

end Cert.KernelIdeal.Result

end
-- ==== Proof.RefProduct.lean ====
/-
  The reference's result is the product of the specification: its one operation is a contraction of the first
  argument's second axis with the second argument's first axis, which at an index (r, d) is the sum over k of
  a (r, k) · x (k, d).
-/
import proofs.«137569_g54185307407137_cont_9to1_m_922_17_alg».proof.Proof.Gen.ReferenceIdeal.Run
import proofs.«137569_g54185307407137_cont_9to1_m_922_17_alg».proof.Proof.Gen.ReferenceIdeal.Read
import proofs.«137569_g54185307407137_cont_9to1_m_922_17_alg».proof.Proof.Spec

noncomputable section

namespace Cert.ReferenceIdeal.RefValue

open Idealize.ShloMosaic Idealize.ShloMosaic.ValueIdx Cert.ReferenceIdeal

theorem ref_eq (x0 : (⟨S10000x10000, .f32⟩ : BufTy).Contents (Elt Ideal)) (x1 : (⟨S10000x128, .f32⟩ : BufTy).Contents (Elt Ideal)) :
    Read.val_main_v0 (F := Ideal) x0 x1 = Cert.Spec.prod x0 x1 := by
  funext i
  rw [Read.val_main_v0_apply]
  unfold Cert.Spec.prod
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  rw [el, er]
  rfl

end Cert.ReferenceIdeal.RefValue

end
-- ==== Proof.lean ====
/-
  A dense graph-convolution aggregation: the kernel computes out = adj · embeds, adj 10000 × 10000 and embeds
  10000 × 128, in 25 grid points of 400 rows each, against the plain matrix product.

  The kernel keeps the whole 10000 × 128 result in one staging buffer that is written back once, after the last
  point. At the first point it fills a scratch buffer with embeds narrowed to bfloat16; at point i it multiplies
  its 400 × 10000 block of adj, narrowed, by the scratch on the matrix unit (accumulating into zero) and stores
  the 400 × 128 product into rows 400·i … 400·i + 399 of the result buffer, leaving the other rows as they were.

  Over the extended reals narrowing is the identity and the matrix unit's product into a zero accumulator is the
  plain sum, so entry (r, d) of what point r / 400 stores is the sum over k of adj (r, k) · embeds (k, d): exactly
  the reference's contraction at (r, d), the terms in the same order. No algebraic law beyond that is used, and
  the finiteness of the inputs is not needed.

  The frames: both programs of the kernel run through the pipeline with proof data that RELATE what a point leaves
  in the result buffer to what it found (rows of the point overwritten, the others kept) and carry the scratch's
  contents from the first point on; the reference is one host operation. The ideal pass rewrote nothing, so the
  kernel's idealization is its own text read at the exact instance.
-/
import proofs.«137569_g54185307407137_cont_9to1_m_922_17_alg».proof.Defs
import proofs.«137569_g54185307407137_cont_9to1_m_922_17_alg».proof.Proof.Gen.Kernel
import proofs.«137569_g54185307407137_cont_9to1_m_922_17_alg».proof.Proof.Gen.KernelIdeal
import proofs.«137569_g54185307407137_cont_9to1_m_922_17_alg».proof.Proof.Gen.ReferenceIdeal
import proofs.«137569_g54185307407137_cont_9to1_m_922_17_alg».proof.Proof.Gen.Pre_finite_inputs
import proofs.«137569_g54185307407137_cont_9to1_m_922_17_alg».proof.Proof.Gen.ReferenceIdeal.Run
import proofs.«137569_g54185307407137_cont_9to1_m_922_17_alg».proof.Proof.Gen.ReferenceIdeal.Read
import proofs.«137569_g54185307407137_cont_9to1_m_922_17_alg».proof.Proof.BitsLaunch
import proofs.«137569_g54185307407137_cont_9to1_m_922_17_alg».proof.Proof.IdealResult
import proofs.«137569_g54185307407137_cont_9to1_m_922_17_alg».proof.Proof.RefProduct
import Idealize.ShloMosaic.Adequacy
import Idealize.ShloMosaic.Init

noncomputable section

namespace Cert.Proof

open Idealize.ShloMosaic Idealize.ShloMosaic.TcCoe Idealize.SL.Sem

/-- The kernel as printed runs and leaves its two arguments unchanged. -/
theorem frame_kernel : Cert.frame_Kernel := fun m ρ _ => Cert.Kernel.Body.frame m ρ

/-- So does its reading at the exact instance. -/
theorem frame_ideal : Cert.frame_KernelIdeal := fun m ρ _ => Cert.KernelIdeal.Body.frame m ρ

/-- The reference is one host operation: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the product adj · embeds of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
